-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192 : Shape := ⟨1, ![8192]⟩
abbrev S8192x1 : Shape := ⟨2, ![8192, 1]⟩
abbrev S1x8192 : Shape := ⟨2, ![1, 8192]⟩
abbrev S8x1x1 : Shape := ⟨3, ![8, 1, 1]⟩
abbrev S1024x1 : Shape := ⟨2, ![1024, 1]⟩
abbrev S1x1024 : Shape := ⟨2, ![1, 1024]⟩
abbrev S1x1x1 : Shape := ⟨3, ![1, 1, 1]⟩
abbrev S1024x1024 : Shape := ⟨2, ![1024, 1024]⟩
abbrev S1024x128 : Shape := ⟨2, ![1024, 128]⟩
abbrev S1 : Shape := ⟨1, ![1]⟩
abbrev S1x1 : Shape := ⟨2, ![1, 1]⟩
abbrev S_ : Shape := ⟨0, ![]⟩

abbrev nBuf : Space → Nat
  | .hbm => 13
  | .vmem => 11
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x1, .f32⟩
  | .hbm, ⟨3, _⟩ => ⟨S1x8192, .f32⟩
  | .hbm, ⟨4, _⟩ => ⟨S8192x1, .f32⟩
  | .hbm, ⟨5, _⟩ => ⟨S1x8192, .f32⟩
  | .hbm, ⟨6, _⟩ => ⟨S8x1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_17 : BitVec 32 := 0#32
  let v42 : BitVec 1 := Scalar.cmpi .ne v41 c0_i32_17
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192_S8192x1 : S8192.ShapeCasts S8192x1
  shapeCasts_S8192_S1x8192 : S8192.ShapeCasts S1x8192
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  bitsLt_bf16_f32 : FTy.bits .bf16 < FTy.bits .f32
  slices_S1024x128_o0_0_S1024x1 : S1024x128.Slices ![0, 0] S1024x1
  reduces_S1024x1_S1 : S1024x1.Reduces [0] S1
  shapeCasts_S1_S1x1 : S1.ShapeCasts S1x1
  shapeCasts_S1x1_S1x1x1 : S1x1.ShapeCasts S1x1x1
  reducesTo_S8x1x1_S_d0_1_2 : S8x1x1.ReducesTo [0, 1, 2] S_
  h_S_ : 0 < S_.numel
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S8x1x1.size a
  hwx0_4 : ∀ i : grid0.Coords, EltTy.bits .f32 = 32 ∨ (Rect.block (s := S8x1x1) S1x1x1.size (cc0_transform_4 i) (hinb0_4 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x1, .f32⟩
  | .hbm, ⟨3, _⟩ => ⟨S1x8192, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S_d0_1 : S8192x8192.ReducesTo [0, 1] S_
  h_S_ : 0 < S_.numel

variable [Facts₀]

class Facts : Prop extends Facts₀ where

variable [Facts]
-- ==== Proof.Spec.lean ====
/-
  Kendall's pairwise sign products, as pure mathematics over the extended reals.

  For two vectors p, t of length 8192 the number both programs compute is built from the pairwise terms
      sign (p a - p b) · sign (t a - t b)            (one program: two signs, then their product)
      sign ((p a - p b) · (t a - t b))               (the other: one sign of the product of the differences)
  For real p a, p b, t a, t b the two terms are the same real number in {-1, 0, 1}: the sign of a product of reals is the
  product of the signs. One program adds the 8192 · 8192 terms in one sum, halves the sum and doubles it again; the other adds
  them tile by tile — rows 1024 i + r against columns 1024 j + k, for i, j < 8 and r, k < 1024 — which is the same finite sum
  of real numbers in another order; and halving then doubling a real number gives it back.
-/
import Idealize.ShloMosaic.PureOps.Ideal
import Idealize.ShloMosaic.PureOps.Ideal.Laws
import Idealize.ShloMosaic.Lib.ValueIdx

noncomputable section

open scoped BigOperators

namespace Cert.Kendall

open Idealize.ShloMosaic Idealize.ShloMosaic.ValueIdx

/-- A vector of 8192 extended reals, indexed as the programs index it. -/
abbrev Vec8192 : Type := (⟨1, ![8192]⟩ : Shape).Idx → EReal

/-- Entry r of tile i: the index 1024 i + r. -/
def row (i : Fin 8) (r : Fin 1024) : Fin 8192 := ⟨1024 * i.val + r.val, by have := i.isLt; have := r.isLt; omega⟩

/-- The pair term with ONE sign: the sign of the product of the two differences. -/
def pairProd (p t : Vec8192) (a b : Fin 8192) : EReal :=
  Ideal.sign ((p (ix1 a) - p (ix1 b)) * (t (ix1 a) - t (ix1 b)))

/-- The pair term with TWO signs: the product of the signs of the two differences. -/
def pairSigns (p t : Vec8192) (a b : Fin 8192) : EReal :=
  Ideal.sign (p (ix1 a) - p (ix1 b)) * Ideal.sign (t (ix1 a) - t (ix1 b))

/-- All pair terms, added tile by tile. -/
def tiledSum (p t : Vec8192) : EReal :=
  ∑ i : Fin 8, ∑ j : Fin 8, ∑ r : Fin 1024, ∑ k : Fin 1024, pairProd p t (row i r) (row j k)

/-- All pair terms, added in one double sum. -/
def fullSum (p t : Vec8192) : EReal :=
  ∑ a : Fin 8192, ∑ b : Fin 8192, pairSigns p t a b

end Cert.Kendall

end
-- ==== Proof.Bridge.lean ====
/-
  The bridge between the two ways of adding Kendall's pairwise sign terms.

  For real vectors the two pair terms (one sign of a product, or a product of two signs) are the same real number; the
  tile-by-tile sum is the one double sum in another order; and halving then doubling a real number gives it back.
-/
import proofs.«107003_j24438363914244_2_alg».proof.Proof.Spec

noncomputable section

open scoped BigOperators

namespace Cert.Kendall

open Idealize.ShloMosaic Idealize.ShloMosaic.ValueIdx

/-- The float pattern of `2.0` denotes the real number 2. -/
theorem ofBits_two : Ideal.ofBits .f32 0x40000000#32 = ((2 : ℝ) : EReal) := by
  simp [Ideal.ofBits, Ideal.ieee, -EReal.coe_mul]; norm_num

/-- The float pattern of `0.5` denotes the real number 1/2. -/
theorem ofBits_half : Ideal.ofBits .f32 0x3F000000#32 = ((1 / 2 : ℝ) : EReal) := by
  simp [Ideal.ofBits, Ideal.ieee, -EReal.coe_mul]; norm_num

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real pair term: the sign, as a real number, of the product of the two differences. -/
def q (P T : Fin 8192 → ℝ) (a b : Fin 8192) : ℝ :=
  ((SignType.sign ((P a - P b) * (T a - T b)) : SignType) : ℝ)

/-- For real vectors the one-sign pair term is the coercion of the real pair term. -/
theorem pairProd_eq (p t : Vec8192) (P T : Fin 8192 → ℝ)
    (hP : ∀ a, p (ix1 a) = (P a : EReal)) (hT : ∀ a, t (ix1 a) = (T a : EReal)) (a b : Fin 8192) :
    pairProd p t a b = ((q P T a b : ℝ) : EReal) := by
  unfold pairProd q
  rw [hP a, hP b, hT a, hT b, ← EReal.coe_sub, ← EReal.coe_sub, ← EReal.coe_mul, Ideal.sign_coe]

/-- For real vectors the two-sign pair term is the coercion of the same real pair term:
    the sign of a product of reals is the product of the signs. -/
theorem pairSigns_eq (p t : Vec8192) (P T : Fin 8192 → ℝ)
    (hP : ∀ a, p (ix1 a) = (P a : EReal)) (hT : ∀ a, t (ix1 a) = (T a : EReal)) (a b : Fin 8192) :
    pairSigns p t a b = ((q P T a b : ℝ) : EReal) := by
  unfold pairSigns q
  rw [hP a, hP b, hT a, hT b, ← EReal.coe_sub, ← EReal.coe_sub, Ideal.sign_coe, Ideal.sign_coe,
    ← EReal.coe_mul, sign_mul, SignType.coe_mul]

/-- Entry r of tile i is the image of (i, r) under the standard bijection Fin 8 × Fin 1024 ≃ Fin 8192. -/
theorem row_eq (i : Fin 8) (r : Fin 1024) :
    row i r = (finProdFinEquiv (i, r) : Fin (8 * 1024)) := by
  apply Fin.ext
  simp only [row, finProdFinEquiv, Equiv.coe_fn_mk]
  omega

/-- Adding over tiles and then over the entries of a tile is adding over all 8192 indices. -/
theorem sum_tiles {M : Type} [AddCommMonoid M] (f : Fin 8192 → M) :
    ∑ i : Fin 8, ∑ r : Fin 1024, f (row i r) = ∑ a : Fin 8192, f a := by
  rw [← Fintype.sum_prod_type' (fun i r => f (row i r))]
  exact Fintype.sum_equiv (finProdFinEquiv : Fin 8 × Fin 1024 ≃ Fin (8 * 1024)) _ _
    (fun x => by rw [row_eq])

/-- The tile-by-tile fourfold sum is the double sum over all pairs of indices. -/
theorem sum_tiles₂ {M : Type} [AddCommMonoid M] (g : Fin 8192 → Fin 8192 → M) :
    ∑ i : Fin 8, ∑ j : Fin 8, ∑ r : Fin 1024, ∑ k : Fin 1024, g (row i r) (row j k)
      = ∑ a : Fin 8192, ∑ b : Fin 8192, g a b := by
  have h1 : ∀ i : Fin 8, ∑ j : Fin 8, ∑ r : Fin 1024, ∑ k : Fin 1024, g (row i r) (row j k)
      = ∑ r : Fin 1024, ∑ b : Fin 8192, g (row i r) b := by
    intro i
    rw [Finset.sum_comm]
    exact Finset.sum_congr rfl (fun r _ => sum_tiles (fun b => g (row i r) b))
  rw [Finset.sum_congr rfl (fun i _ => h1 i)]
  exact sum_tiles (fun a => ∑ b : Fin 8192, g a b)

/-- Halving and then doubling a real number (with zeros added) gives it back. -/
theorem double_half (S : ℝ) :
    ((2 : ℝ) : EReal) * (((0 : EReal) + (S : EReal)) * ((1 / 2 : ℝ) : EReal)) = (0 : EReal) + (S : EReal) := by
  rw [zero_add, ← EReal.coe_mul, ← EReal.coe_mul]
  congr 1
  ring

/-- For real vectors: doubling the halved full sum of two-sign terms gives the tile-by-tile sum of one-sign terms. -/
theorem bridge (p t : Vec8192) (hp : ∀ i, ∃ r : ℝ, p i = (r : EReal)) (ht : ∀ i, ∃ r : ℝ, t i = (r : EReal)) :
    Ideal.ofBits .f32 0x40000000#32 * ((Ideal.ofBits .f32 0x00000000#32 + fullSum p t) * Ideal.ofBits .f32 0x3F000000#32)
      = Ideal.ofBits .f32 0x00000000#32 + tiledSum p t := by
  choose P0 hP0 using hp
  choose T0 hT0 using ht
  let P : Fin 8192 → ℝ := fun a => P0 (ix1 a)
  let T : Fin 8192 → ℝ := fun a => T0 (ix1 a)
  have hP : ∀ a, p (ix1 a) = (P a : EReal) := fun a => hP0 (ix1 a)
  have hT : ∀ a, t (ix1 a) = (T a : EReal) := fun a => hT0 (ix1 a)
  have hfull : fullSum p t = ((∑ a : Fin 8192, ∑ b : Fin 8192, q P T a b : ℝ) : EReal) := by
    unfold fullSum
    rw [coe_sum]
    refine Finset.sum_congr rfl (fun a _ => ?_)
    rw [coe_sum]
    exact Finset.sum_congr rfl (fun b _ => pairSigns_eq p t P T hP hT a b)
  have htiled : tiledSum p t = ((∑ a : Fin 8192, ∑ b : Fin 8192, q P T a b : ℝ) : EReal) := by
    unfold tiledSum
    rw [sum_tiles₂ (fun a b => pairProd p t a b), coe_sum]
    refine Finset.sum_congr rfl (fun a _ => ?_)
    rw [coe_sum]
    exact Finset.sum_congr rfl (fun b _ => pairProd_eq p t P T hP hT a b)
  rw [hfull, htiled, ofBits_two, ofBits_half, Ideal.ofBits_zero_f32]
  exact double_half _

end Cert.Kendall

end
-- ==== Proof.LibFinite.lean ====
/-
  A finiteness test read back. The predicate  all(|x| < +inf)  of a float array x prints as a reduction by "and", from the
  constant 1, of the entrywise comparison of |x| with the broadcast scalar whose word is the +inf pattern. On the extended
  reals |x| is max(x, -x) and that word is ⊤; so if the reduction, taken over all axes, is 1, every entry of x is a real
  number: an entry ⊤ or ⊥ would have |x| = ⊤, which is not below ⊤. Generic in the shape.
-/
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.LibFinite

open Idealize.ShloMosaic Idealize.ShloMosaic.ValueIdx

instance : Subsingleton (⟨0, ![]⟩ : Shape).Idx := ⟨fun a b => funext fun d => d.elim0⟩

/-- The +inf pattern denotes ⊤. -/
theorem inf_word : Ideal.ofBits .f32 0x7F800000#32 = (⊤ : EReal) := by
  simp [Ideal.ofBits, Ideal.ieee]

/-- An extended real whose absolute value is below ⊤ is a real number. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- all(|x| < +inf) = 1 gives: every entry of x is real. -/
theorem real_of_all {S : Shape} {axes : List (Fin S.rank)} (x : FVec Ideal S .f32)
    (bc : (⟨0, ![]⟩ : Shape).BroadcastsInDim S ![]) (h : S.ReducesTo axes ⟨0, ![]⟩) (hu : 0 < (⟨0, ![]⟩ : Shape).numel)
    (j : (⟨0, ![]⟩ : Shape).Idx)
    (e : Host.reduce IntOp.andi
        (cmpf .olt (Host.absf x) (broadcastInDim S ![] bc (constant ⟨0, ![]⟩ .f32 0x7F800000#32)))
        (constantI ⟨0, ![]⟩ 1 1#1) h hu j = 1#1) :
    ∀ i, ∃ r : ℝ, x i = (r : EReal) := fun i => by
  have hi := Host.reduce_andi_all _ _ h hu j e i
  have hb : broadcastInDim S ![] bc (constant (F := Ideal) ⟨0, ![]⟩ .f32 0x7F800000#32) i = (⊤ : EReal) := by
    rw [broadcastInDim_apply ![] bc _ i ix0 fun d => d.elim0]
    exact inf_word
  have hc : Ideal.cmp .olt (max (x i) (-(x i))) (broadcastInDim S ![] bc (constant (F := Ideal) ⟨0, ![]⟩ .f32 0x7F800000#32) i) = 1#1 := hi
  rw [hb] at hc
  refine real_of_abs_lt_top (x i) ?_
  by_contra hlt
  have : Ideal.cmp .olt (max (x i) (-(x i))) ⊤ = 0#1 := by
    show BitVec.ofBool (decide (max (x i) (-(x i)) < ⊤)) = 0#1
    rw [decide_eq_false hlt]; rfl
  rw [this] at hc
  exact absurd hc (by decide)

end Cert.LibFinite

end
-- ==== Proof.Finite.lean ====
/-
  The precondition read back: if every entry of both argument vectors passes the finiteness test, every entry is a real number.
-/
import proofs.«107003_j24438363914244_2_alg».proof.Pre_finite_inputs
import proofs.«107003_j24438363914244_2_alg».proof.Proof.Gen.Pre_finite_inputs
import proofs.«107003_j24438363914244_2_alg».proof.Proof.LibFinite
import Idealize.ShloMosaic.Lib.ReduceAll
import Idealize.ShloMosaic.Lib.ValueIdx

noncomputable section

namespace Cert.Finite

open Idealize.ShloMosaic Idealize.ShloMosaic.ValueIdx

/-- Both conjuncts of the test, each a reduction by "and" over a whole vector, give that the vector's entries are real. -/
theorem real_of_pre (x0 x1 : FVec Ideal Cert.Pre_finite_inputs.S8192 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ix0
  dsimp only [Cert.Pre_finite_inputs.fn] at h0
  obtain ⟨ha, hb⟩ := IntOp.andi_eq_one.mp h0
  exact ⟨Cert.LibFinite.real_of_all x0 _ _ _ ix0 ha, Cert.LibFinite.real_of_all x1 _ _ _ ix0 hb⟩

end Cert.Finite

end
-- ==== Proof.RefSide.lean ====
/-
  The reference program's result as a number: one minus the quotient, by a constant, of twice the half of (zero plus the
  double sum, over all pairs of indices, of the two-sign pair terms).
-/
import proofs.«107003_j24438363914244_2_alg».proof.Proof.Gen.ReferenceIdeal.Read
import proofs.«107003_j24438363914244_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Kendall (fullSum pairSigns)

/-- The pairwise product of signs at (a, b), as the reference spells it, is the two-sign pair term. -/
theorem v12_apply (x0 x1 : S8192.Idx → EReal) (a b : Fin 8192) :
    val_main_v12 (F := Ideal) x0 x1 (ix2 a b) = pairSigns x0 x1 a b := by
  have e0 : idx_main_v0 (idx_main_v2 (ix2 a b)) = ix1 a := funext fun d => Fin.ext (by match d with | ⟨0, _⟩ => rfl)
  have e1 : idx_main_v1 (idx_main_v3 (ix2 a b)) = ix1 b := funext fun d => Fin.ext (by match d with | ⟨0, _⟩ => rfl)
  have e6 : idx_main_v6 (idx_main_v8 (ix2 a b)) = ix1 a := funext fun d => Fin.ext (by match d with | ⟨0, _⟩ => rfl)
  have e7 : idx_main_v7 (idx_main_v9 (ix2 a b)) = ix1 b := funext fun d => Fin.ext (by match d with | ⟨0, _⟩ => rfl)
  rw [val_main_v12_apply, val_main_v5_apply, val_main_v11_apply, val_main_v4_apply, val_main_v10_apply,
    val_main_v2_apply, val_main_v3_apply, val_main_v8_apply, val_main_v9_apply,
    val_main_v0_apply, val_main_v1_apply, val_main_v6_apply, val_main_v7_apply, e0, e1, e6, e7]
  rfl

/-- The reference's result. -/
theorem result_apply (x0 x1 : S8192.Idx → EReal) (i : S_.Idx) :
    val_main_v17 (F := Ideal) x0 x1 i
      = Ideal.ofBits .f32 0x3F800000#32
        - Ideal.div (Ideal.ofBits .f32 0x40000000#32 * ((Ideal.ofBits .f32 0x00000000#32 + fullSum x0 x1) * Ideal.ofBits .f32 0x3F000000#32))
            (Ideal.ofBits .f32 0x4C7FF800#32) := by
  rw [val_main_v17_apply, val_main_v16_apply, val_main_v15_apply, val_main_v14_apply, val_main_v13_apply,
    val_main_cst_apply, val_main_cst_0_apply, val_main_cst_1_apply, val_main_cst_2_apply, val_main_cst_3_apply]
  have hs : ∑ j : S8192x8192.Idx, val_main_v12 (F := Ideal) x0 x1 j = fullSum x0 x1 := by
    unfold fullSum
    rw [sum_idx2]
    exact Finset.sum_congr rfl fun a _ => Finset.sum_congr rfl fun b _ => v12_apply x0 x1 a b
  rw [hs]
  rfl

end Cert.ReferenceIdeal.RefValue

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payload.lean ====
/-
  One tile of the kernel's work, as a number.

  At a grid point the body holds a column block pc, tc (1024 entries of p and of t, as [1024, 1] columns) and a row block
  pr, tr (1024 entries, as [1, 1024] rows). It forms the differences pc r - pr k and tc r - tr k over the 1024 x 1024 tile,
  multiplies them, takes the sign, multiplies the sign matrix by a matrix of ones (so that column 0 of the product holds the
  row sums), adds column 0 up, and adds the total to the running value xs. At the ideal values that is
      xs + sum over r, k of sign ((pc r - pr k) (tc r - tr k)).
-/
import proofs.«107003_j24438363914244_2_alg».proof.Proof.Gen.KernelIdeal.Skeleton
import proofs.«107003_j24438363914244_2_alg».proof.Proof.LibPlainDot
import proofs.«107003_j24438363914244_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The tile's entry (r, k): the sign of the product of the two differences. -/
def cell (pc : Vec Ideal S1024x1 .f32) (pr : Vec Ideal S1x1024 .f32) (tc : Vec Ideal S1024x1 .f32)
    (tr : Vec Ideal S1x1024 .f32) (r k : Fin 1024) : EReal :=
  Ideal.sign ((pc (ix2 r (0 : Fin 1)) - pr (ix2 (0 : Fin 1) k)) * (tc (ix2 r (0 : Fin 1)) - tr (ix2 (0 : Fin 1) k)))

/-- The tile's total. -/
def tile (pc : Vec Ideal S1024x1 .f32) (pr : Vec Ideal S1x1024 .f32) (tc : Vec Ideal S1024x1 .f32)
    (tr : Vec Ideal S1x1024 .f32) : EReal :=
  ∑ r : Fin 1024, ∑ k : Fin 1024, cell pc pr tc tr r k

/-- In a shape whose axes all have extent one there is only one index. -/
theorem idx_unit_eq {s : Shape} (hs : ∀ a, s.size a = 1) (i j : s.Idx) : i = j :=
  funext fun a => Fin.ext (by have := (i a).isLt; have := (j a).isLt; have := hs a; omega)

/-- The matrix of products of differences, at (r, k): the column entries of row r minus the row entries of column k. -/
theorem prodMat_apply (pc : Vec Ideal S1024x1 .f32) (pr : Vec Ideal S1x1024 .f32) (tc : Vec Ideal S1024x1 .f32)
    (tr : Vec Ideal S1x1024 .f32) (r k : Fin 1024) :
    mulf (F := Ideal) (φ := .f32) (subf (F := Ideal) (φ := .f32) (broadcastTo S1024x1024 (shapeCast S1024x1 pc shapeCasts_S1024x1_S1024x1) broadcasts_S1024x1_S1024x1024)
              (broadcastTo S1024x1024 (shapeCast S1x1024 pr shapeCasts_S1x1024_S1x1024) broadcasts_S1x1024_S1024x1024))
         (subf (F := Ideal) (φ := .f32) (broadcastTo S1024x1024 (shapeCast S1024x1 tc shapeCasts_S1024x1_S1024x1) broadcasts_S1024x1_S1024x1024)
              (broadcastTo S1024x1024 (shapeCast S1x1024 tr shapeCasts_S1x1024_S1x1024) broadcasts_S1x1024_S1024x1024))
         (ix2 r k)
      = (pc (ix2 r (0 : Fin 1)) - pr (ix2 (0 : Fin 1) k)) * (tc (ix2 r (0 : Fin 1)) - tr (ix2 (0 : Fin 1) k)) := by
  show (broadcastTo S1024x1024 (shapeCast S1024x1 pc shapeCasts_S1024x1_S1024x1) broadcasts_S1024x1_S1024x1024 (ix2 r k)
        - broadcastTo S1024x1024 (shapeCast S1x1024 pr shapeCasts_S1x1024_S1x1024) broadcasts_S1x1024_S1024x1024 (ix2 r k))
      * (broadcastTo S1024x1024 (shapeCast S1024x1 tc shapeCasts_S1024x1_S1024x1) broadcasts_S1024x1_S1024x1024 (ix2 r k)
        - broadcastTo S1024x1024 (shapeCast S1x1024 tr shapeCasts_S1x1024_S1x1024) broadcasts_S1x1024_S1024x1024 (ix2 r k)) = _
  rw [Cert.LibKeepdims.broadcastTo_a1_ab_apply, Cert.LibKeepdims.broadcastTo_a1_ab_apply,
    broadcastTo_1b_ab_apply, broadcastTo_1b_ab_apply, shapeCast_self, shapeCast_self, shapeCast_self, shapeCast_self]

/-- The sign as the body spells it — one with the sign bit of the entry where its absolute value is above zero, the entry itself
    elsewhere — is the sign of the entry. -/
theorem signMat_apply (M : FVec Ideal S1024x1024 .f32) (i : S1024x1024.Idx) :
    (select (cmpf (F := Ideal) .ogt (absf (F := Ideal) M) (broadcast S1024x1024 (FloatOps.ofBits (F := Ideal) .f32 0x00000000#32)))
        (select (cmpf (F := Ideal) .olt M (constant (F := Ideal) S1024x1024 .f32 0x00000000#32)) (constant (F := Ideal) S1024x1024 .f32 0xBF800000#32)
          (constant (F := Ideal) S1024x1024 .f32 0x3F800000#32)) M) i = Ideal.sign (M i) :=
  Ideal.jnp_sign_eq_sign_f32 (M i)

/-- The word of 1.0 in the sixteen-bit format denotes 1. -/
theorem one_bf16 : Ideal.ofBits .bf16 0x3F80#16 = 1 := IdealRules.sign_bit.ideal_onePat .bf16

/-- A [1024, 1] column added up along its rows: the sum over the row coordinate. -/
theorem colReduce (X : FVec Ideal S1024x1 .f32) (j : S1.Idx) (hφ : FKind.Formats .f32)
    (hacc : (0x00000000#32 : BitVec 32) = FKind.add.neutral .f32 hφ) :
    multiReduction (F := Ideal) (φ := .f32) .add [0] S1 X 0x00000000#32 reduces_S1024x1_S1 hφ hacc j
      = ∑ k : Fin 1024, X (reduces_S1024x1_S1.lift j k) :=
  Ideal.multiReduction_add_single X _ reduces_S1024x1_S1 hφ hacc j

/-- The same with the one-entry result recast twice: the sum of the column's entries. -/
theorem colSum_apply (X : FVec Ideal S1024x1 .f32) (y : S1x1x1.Idx) (hφ : FKind.Formats .f32)
    (hacc : (0x00000000#32 : BitVec 32) = FKind.add.neutral .f32 hφ) :
    shapeCast S1x1x1
        (shapeCast S1x1
          (multiReduction (F := Ideal) (φ := .f32) .add [0] S1 X 0x00000000#32 reduces_S1024x1_S1 hφ hacc)
          shapeCasts_S1_S1x1)
        shapeCasts_S1x1_S1x1x1 y
      = ∑ r : Fin 1024, X (ix2 r (0 : Fin 1)) := by
  unfold shapeCast
  refine (colReduce X _ hφ hacc).trans ?_
  refine Finset.sum_congr rfl fun r _ => congrArg X ?_
  funext a
  apply Fin.ext
  match a with
  | ⟨0, _⟩ => rfl
  | ⟨1, _⟩ =>
    generalize ((Shape.reshapeEquiv shapeCasts_S1_S1x1) ((Shape.reshapeEquiv shapeCasts_S1x1_S1x1x1) y)) = j
    show (j 0).val = 0
    have h1 : (j 0).val < 1 := (j 0).isLt
    omega

/-- A matrix times the all-ones matrix has, in column 0 of row r, the sum of the matrix's row r. -/
theorem onesProd_apply (Sg : FVec Ideal S1024x1024 .f32) (r : Fin 1024) :
    extractStridedSlice S1024x1 ![0, 0]
        (matmul (F := Ideal) dot_S1024x1024_S1024x128_S1024x128_1_0_0_1_n_n none (truncf (F := Ideal) .bf16 Sg bitsLt_bf16_f32)
          (broadcast S1024x128 (FloatOps.ofBits (F := Ideal) .bf16 0x3F80#16)) (constant (F := Ideal) S1024x128 .f32 0x00000000#32))
        slices_S1024x128_o0_0_S1024x1 (ix2 r (0 : Fin 1))
      = ∑ k : Fin 1024, Sg (ix2 r k) := by
  refine (extractStridedSlice_apply _ _ slices_S1024x128_o0_0_S1024x1 (ix2 r (0 : Fin 1)) (ix2 r (0 : Fin 128)) (fun a => ?_)).trans ?_
  · match a with
    | ⟨0, _⟩ => show r.val = 0 + r.val; omega
    | ⟨1, _⟩ => rfl
  rw [Cert.Lib.PlainDot.eq_plain dot_S1024x1024_S1024x128_S1024x128_1_0_0_1_n_n rfl rfl rfl rfl rfl rfl]
  refine (Cert.Lib.PlainDot.matmul_zero_plain_apply none _ _ _).trans ?_
  refine Finset.sum_congr rfl fun k _ => ?_
  show Sg (ix2 r k) * Ideal.ofBits .bf16 0x3F80#16 = _
  rw [one_bf16, mul_one]

/-- So the whole chain — product with the ones, column 0, sum over the rows — is the sum of all the matrix's entries. -/
theorem rowSums_apply (Sg : FVec Ideal S1024x1024 .f32) (y : S1x1x1.Idx) (hφ : FKind.Formats .f32)
    (hacc : (0x00000000#32 : BitVec 32) = FKind.add.neutral .f32 hφ) :
    shapeCast S1x1x1
        (shapeCast S1x1
          (multiReduction (F := Ideal) (φ := .f32) .add [0] S1
            (extractStridedSlice S1024x1 ![0, 0]
              (matmul (F := Ideal) dot_S1024x1024_S1024x128_S1024x128_1_0_0_1_n_n none (truncf (F := Ideal) .bf16 Sg bitsLt_bf16_f32)
                (broadcast S1024x128 (FloatOps.ofBits (F := Ideal) .bf16 0x3F80#16)) (constant (F := Ideal) S1024x128 .f32 0x00000000#32))
              slices_S1024x128_o0_0_S1024x1)
            0x00000000#32 reduces_S1024x1_S1 hφ hacc)
          shapeCasts_S1_S1x1)
        shapeCasts_S1x1_S1x1x1 y
      = ∑ r : Fin 1024, ∑ k : Fin 1024, Sg (ix2 r k) :=
  (colSum_apply _ y hφ hacc).trans (Finset.sum_congr rfl fun r _ => onesProd_apply Sg r)

theorem pay3_apply (pc : Vec Ideal S1024x1 .f32) (pr : Vec Ideal S1x1024 .f32) (tc : Vec Ideal S1024x1 .f32)
    (tr : Vec Ideal S1x1024 .f32) (xs : Vec Ideal S1x1x1 .f32) (y : S1x1x1.Idx) :
    k0_pay3 (F := Ideal) pc pr tc tr xs y = xs y + tile pc pr tc tr := by
  unfold k0_pay3
  show xs y + _ = _
  refine congrArg (xs y + ·) ?_
  refine (rowSums_apply _ y _ _).trans ?_
  unfold tile
  refine Finset.sum_congr rfl fun r _ => Finset.sum_congr rfl fun k _ => ?_
  refine (signMat_apply _ _).trans ?_
  unfold cell
  exact congrArg Ideal.sign (prodMat_apply pc pr tc tr r k)

end Cert.KernelIdeal.Tile

end
-- ==== Proof.Blocks.lean ====
/-
  The blocks the kernel reads at a grid point, as entries of the two argument vectors.

  Grid point t is tile (t / 8, t % 8). The column blocks of the point are rows 1024 (t / 8) + r of p and t (as [8192, 1]
  columns), the row blocks are columns 1024 (t % 8) + k of p and t (as [1, 8192] rows); the column and row arrays are the
  argument vectors themselves, recast before the kernel is entered. So the tile's total at point t is the sum, over r and k, of
  the one-sign pair terms of entries 1024 (t / 8) + r and 1024 (t % 8) + k.
-/
import proofs.«107003_j24438363914244_2_alg».proof.Proof.Gen.KernelIdeal.Frame
import proofs.«107003_j24438363914244_2_alg».proof.Proof.Spec
import proofs.«107003_j24438363914244_2_alg».proof.Proof.Payload
import proofs.«107003_j24438363914244_2_alg».proof.Proof.LibKeepdims
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open scoped BigOperators

namespace Cert.KernelIdeal.Blocks

open Cert.KernelIdeal Cert.KernelIdeal.Gen Idealize.ShloMosaic Idealize.ShloMosaic.TcCoe Idealize.ShloMosaic.Tactic Idealize.SL.Sem
open Idealize.ShloMosaic.ValueIdx Idealize.ShloMosaic.StableHlo
open Cert.Kendall (row pairProd)

variable (m : (ℓ : Loc nD τ sig) → Buf (Elt Ideal) ℓ)

/-- A natural number read as a tile number. -/
def fin8 (n : ℕ) : Fin 8 := ⟨n % 8, Nat.mod_lt _ (by decide)⟩

/-- The column array of p as the kernel finds it: the argument recast to [8192, 1]. -/
theorem V_v0 (c : Dev nD) : (V m c main_v0 : S8192x1.Idx → EReal)
    = shapeCast S8192x1 (m ((c : Thread nD τ).loc main_arg0)) shapeCasts_S8192_S8192x1 := by
  show StableHlo.after hostOps0 (fun b => m (c, b)) (Proc.devRef .tc main_v0) = _
  after_results
  rfl

/-- The row array of p. -/
theorem V_v1 (c : Dev nD) : (V m c main_v1 : S1x8192.Idx → EReal)
    = shapeCast S1x8192 (m ((c : Thread nD τ).loc main_arg0)) shapeCasts_S8192_S1x8192 := by
  show StableHlo.after hostOps0 (fun b => m (c, b)) (Proc.devRef .tc main_v1) = _
  after_results
  rfl

/-- The column array of t. -/
theorem V_v2 (c : Dev nD) : (V m c main_v2 : S8192x1.Idx → EReal)
    = shapeCast S8192x1 (m ((c : Thread nD τ).loc main_arg1)) shapeCasts_S8192_S8192x1 := by
  show StableHlo.after hostOps0 (fun b => m (c, b)) (Proc.devRef .tc main_v2) = _
  after_results
  rfl

/-- The row array of t. -/
theorem V_v3 (c : Dev nD) : (V m c main_v3 : S1x8192.Idx → EReal)
    = shapeCast S1x8192 (m ((c : Thread nD τ).loc main_arg1)) shapeCasts_S8192_S1x8192 := by
  show StableHlo.after hostOps0 (fun b => m (c, b)) (Proc.devRef .tc main_v3) = _
  after_results
  rfl

/-- Which block each window reads at a point: the column windows follow the tile's row number, the row windows its column number. -/
theorem index_facts : ∀ t : Fin cfg0.N,
    win0_0.index t 0 = (t.val / 8) % 8 ∧ win0_0.index t 1 = 0 ∧ win0_1.index t 0 = 0 ∧ win0_1.index t 1 = (t.val % 8) % 8
    ∧ win0_2.index t 0 = (t.val / 8) % 8 ∧ win0_2.index t 1 = 0 ∧ win0_3.index t 0 = 0 ∧ win0_3.index t 1 = (t.val % 8) % 8 :=
  (by decide +kernel : ∀ t : Fin grid0.N,
    win0_0.index t 0 = (t.val / 8) % 8 ∧ win0_0.index t 1 = 0 ∧ win0_1.index t 0 = 0 ∧ win0_1.index t 1 = (t.val % 8) % 8
    ∧ win0_2.index t 0 = (t.val / 8) % 8 ∧ win0_2.index t 1 = 0 ∧ win0_3.index t 0 = 0 ∧ win0_3.index t 1 = (t.val % 8) % 8)

/-- An [8192] vector recast to a [1, 8192] row reads, at (0, i), the vector at i. -/
theorem shapeCast_row_apply {α : Type} (x : S8192.Idx → α) (u : Fin 1) (i : Fin 8192) :
    shapeCast S1x8192 x shapeCasts_S8192_S1x8192 (ix2 u i) = x (ix1 i) :=
  shapeCast_apply x _ _ _ (by
    have hu : u.val = 0 := by omega
    rw [Shape.rowMajor_val_two, Shape.rowMajor_val_one]
    show i.val = u.val * 8192 + i.val
    omega)

/-- The column block of p at point t, entry r: entry 1024 (t / 8) + r of p. -/
theorem iblk0_apply (c : Dev nD) (t : Fin cfg0.N) (r : Fin 1024) :
    (iblk m c 0 t : S1024x1.Idx → EReal) (ix2 r (0 : Fin 1)) = m ((c : Thread nD τ).loc main_arg0) (ix1 (row (fin8 (t.val / 8)) r)) := by
  obtain ⟨h0, h1, -⟩ := index_facts t
  unfold iblk
  rw [View.read_apply]
  show V m c main_v0 _ = _
  rw [V_v0]
  have e : ((cfg0.win 0).blk t).view.emb (ix2 r (0 : Fin 1)) = (ix2 (row (fin8 (t.val / 8)) r) (0 : Fin 1) : S8192x1.Idx) := by
    funext a
    apply Fin.ext
    match a with
    | ⟨0, _⟩ =>
      show win0_0.index t 0 * 1024 + 1 * r.val = 1024 * ((t.val / 8) % 8) + r.val
      rw [h0]; omega
    | ⟨1, _⟩ =>
      show win0_0.index t 1 * 1 + 1 * 0 = 0
      rw [h1]
  rw [e]
  exact Cert.LibKeepdims.shapeCast_a_a1_apply _ _ _ _

/-- The row block of p at point t, entry k: entry 1024 (t % 8) + k of p. -/
theorem iblk1_apply (c : Dev nD) (t : Fin cfg0.N) (k : Fin 1024) :
    (iblk m c 1 t : S1x1024.Idx → EReal) (ix2 (0 : Fin 1) k) = m ((c : Thread nD τ).loc main_arg0) (ix1 (row (fin8 (t.val % 8)) k)) := by
  obtain ⟨-, -, h0, h1, -⟩ := index_facts t
  unfold iblk
  rw [View.read_apply]
  show V m c main_v1 _ = _
  rw [V_v1]
  have e : ((cfg0.win 1).blk t).view.emb (ix2 (0 : Fin 1) k) = (ix2 (0 : Fin 1) (row (fin8 (t.val % 8)) k) : S1x8192.Idx) := by
    funext a
    apply Fin.ext
    match a with
    | ⟨0, _⟩ =>
      show win0_1.index t 0 * 1 + 1 * 0 = 0
      rw [h0]
    | ⟨1, _⟩ =>
      show win0_1.index t 1 * 1024 + 1 * k.val = 1024 * ((t.val % 8) % 8) + k.val
      rw [h1]; omega
  rw [e]
  exact shapeCast_row_apply _ _ _

/-- The column block of t at point t, entry r. -/
theorem iblk2_apply (c : Dev nD) (t : Fin cfg0.N) (r : Fin 1024) :
    (iblk m c 2 t : S1024x1.Idx → EReal) (ix2 r (0 : Fin 1)) = m ((c : Thread nD τ).loc main_arg1) (ix1 (row (fin8 (t.val / 8)) r)) := by
  obtain ⟨-, -, -, -, h0, h1, -⟩ := index_facts t
  unfold iblk
  rw [View.read_apply]
  show V m c main_v2 _ = _
  rw [V_v2]
  have e : ((cfg0.win 2).blk t).view.emb (ix2 r (0 : Fin 1)) = (ix2 (row (fin8 (t.val / 8)) r) (0 : Fin 1) : S8192x1.Idx) := by
    funext a
    apply Fin.ext
    match a with
    | ⟨0, _⟩ =>
      show win0_2.index t 0 * 1024 + 1 * r.val = 1024 * ((t.val / 8) % 8) + r.val
      rw [h0]; omega
    | ⟨1, _⟩ =>
      show win0_2.index t 1 * 1 + 1 * 0 = 0
      rw [h1]
  rw [e]
  exact Cert.LibKeepdims.shapeCast_a_a1_apply _ _ _ _

/-- The row block of t at point t, entry k. -/
theorem iblk3_apply (c : Dev nD) (t : Fin cfg0.N) (k : Fin 1024) :
    (iblk m c 3 t : S1x1024.Idx → EReal) (ix2 (0 : Fin 1) k) = m ((c : Thread nD τ).loc main_arg1) (ix1 (row (fin8 (t.val % 8)) k)) := by
  obtain ⟨-, -, -, -, -, -, h0, h1⟩ := index_facts t
  unfold iblk
  rw [View.read_apply]
  show V m c main_v3 _ = _
  rw [V_v3]
  have e : ((cfg0.win 3).blk t).view.emb (ix2 (0 : Fin 1) k) = (ix2 (0 : Fin 1) (row (fin8 (t.val % 8)) k) : S1x8192.Idx) := by
    funext a
    apply Fin.ext
    match a with
    | ⟨0, _⟩ =>
      show win0_3.index t 0 * 1 + 1 * 0 = 0
      rw [h0]
    | ⟨1, _⟩ =>
      show win0_3.index t 1 * 1024 + 1 * k.val = 1024 * ((t.val % 8) % 8) + k.val
      rw [h1]; omega
  rw [e]
  exact shapeCast_row_apply _ _ _

/-- The total of tile (i, j): the one-sign pair terms of entries 1024 i + r against 1024 j + k, added up. -/
def tileSum (p t : Cert.Kendall.Vec8192) (i j : ℕ) : EReal :=
  ∑ r : Fin 1024, ∑ k : Fin 1024, pairProd p t (row (fin8 i) r) (row (fin8 j) k)

/-- The tile's total at point t, from the blocks the kernel reads there. -/
theorem tile_at (c : Dev nD) (t : Fin cfg0.N) :
    Cert.KernelIdeal.Tile.tile (iblk m c 0 t) (iblk m c 1 t) (iblk m c 2 t) (iblk m c 3 t)
      = tileSum (m ((c : Thread nD τ).loc main_arg0)) (m ((c : Thread nD τ).loc main_arg1)) (t.val / 8) (t.val % 8) := by
  unfold Cert.KernelIdeal.Tile.tile tileSum
  refine Finset.sum_congr rfl fun r _ => Finset.sum_congr rfl fun k _ => ?_
  unfold Cert.KernelIdeal.Tile.cell pairProd
  rw [iblk0_apply, iblk1_apply, iblk2_apply, iblk3_apply]

end Cert.KernelIdeal.Blocks

end
-- ==== Proof.Pieces.lean ====
/-
  What the body leaves behind at a grid point, case by case, as a function of what it loaded.

  Write acc for the one-entry running value the kernel carries between grid points, and step (blocks, acc) for "acc plus the
  tile's total" as the body computes it. At a point that starts a row of tiles the body first sets acc to zero, so it leaves
  step (blocks, 0); at every other point it leaves step (blocks, acc). At a point that ends a row of tiles it also copies the new
  running value to the output block.
-/
import proofs.«107003_j24438363914244_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem
open Idealize.ShloMosaic.Pipeline (Dat)

variable {F : FTy → Type} [FloatOps F]

theorem hz : (![0, 0, 0] : Fin 3 → Nat) = fun _ => 0 := funext fun a => by fin_cases a <;> rfl
theorem hz2 : (![0, 0] : Fin 2 → Nat) = fun _ => 0 := funext fun a => by fin_cases a <;> rfl

/-- A point inside a row of tiles: the running value becomes the old one plus this tile's total. -/
theorem sout_B (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x1 .f32) (harg6 : arg6.IsWhole) (arg7 : Memref sig .tc .vmem S1x1x1 .f32) (harg7 : arg7.IsWhole) (hc0 : ¬cond0_0 i) (hc1 : ¬cond0_1 i) (x0 : Vec F S1024x1 .f32) (x1 : Vec F S1x1024 .f32) (x2 : Vec F S1024x1 .f32) (x3 : Vec F S1x1024 .f32) (xs0 : Vec F S1x1x1 .f32) :
    sout0_B_0 c i arg2 harg2 arg3 harg3 arg4 harg4 arg5 harg5 arg6 harg6 arg7 harg7 hc0 hc1 x0 x1 x2 x3 xs0 = k0_pay1 (k0_pay3 x0 x1 x2 x3 xs0) := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg5.read_unread, harg7.read_unread,
    View.ld_unit_zero (S := S1024x1) hz2, View.ld_unit_zero (S := S1x1024) hz2, View.ld_unit_zero (S := S1x1x1) hz]

/-- A point that starts a row of tiles: the running value is set to zero, read back, and this tile's total added. -/
theorem sout_A (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x1 .f32) (harg6 : arg6.IsWhole) (arg7 : Memref sig .tc .vmem S1x1x1 .f32) (harg7 : arg7.IsWhole) (hc0 : cond0_0 i) (hc1 : ¬cond0_1 i) (x0 : Vec F S1024x1 .f32) (x1 : Vec F S1x1024 .f32) (x2 : Vec F S1024x1 .f32) (x3 : Vec F S1x1024 .f32) :
    sout0_A_0 c i arg2 harg2 arg3 harg3 arg4 harg4 arg5 harg5 arg6 harg6 arg7 harg7 hc0 hc1 x0 x1 x2 x3 = k0_pay1 (k0_pay3 x0 x1 x2 x3 (k0_pay2 (F := F))) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x1x1) hz, View.readCov_unit_zero (S := S1x1x1) _ hz]
  simp only [View.readAt_eq_ld, harg2.read_unread, harg3.read_unread, harg4.read_unread, harg5.read_unread,
    View.ld_unit_zero (S := S1024x1) hz2, View.ld_unit_zero (S := S1x1024) hz2]

/-- A point that ends a row of tiles: the running value as at any later point of the row, -/
theorem sout_C (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x1 .f32) (harg6 : arg6.IsWhole) (arg7 : Memref sig .tc .vmem S1x1x1 .f32) (harg7 : arg7.IsWhole) (hc0 : ¬cond0_0 i) (hc1 : cond0_1 i) (x0 : Vec F S1024x1 .f32) (x1 : Vec F S1x1024 .f32) (x2 : Vec F S1024x1 .f32) (x3 : Vec F S1x1024 .f32) (xs0 : Vec F S1x1x1 .f32) :
    sout0_C_0 c i arg2 harg2 arg3 harg3 arg4 harg4 arg5 harg5 arg6 harg6 arg7 harg7 hc0 hc1 x0 x1 x2 x3 xs0 = k0_pay1 (k0_pay3 x0 x1 x2 x3 xs0) := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread,
    View.ld_unit_zero (S := S1024x1) hz2, View.ld_unit_zero (S := S1x1024) hz2, View.ld_unit_zero (S := S1x1x1) hz]

/-- and the output block receives that same new running value. -/
theorem out_C (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1x1 .f32) (harg6 : arg6.IsWhole) (arg7 : Memref sig .tc .vmem S1x1x1 .f32) (harg7 : arg7.IsWhole) (hc0 : ¬cond0_0 i) (hc1 : cond0_1 i) (x0 : Vec F S1024x1 .f32) (x1 : Vec F S1x1024 .f32) (x2 : Vec F S1024x1 .f32) (x3 : Vec F S1x1024 .f32) (xs0 : Vec F S1x1x1 .f32) :
    out0_C_4 c i arg2 harg2 arg3 harg3 arg4 harg4 arg5 harg5 arg6 harg6 arg7 harg7 hc0 hc1 x0 x1 x2 x3 xs0 = k0_pay1 (k0_pay3 x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S1x1x1) _ hz]
  simp only [View.readAt_eq_ld, harg2.read_unread, harg3.read_unread, harg4.read_unread, harg5.read_unread, harg7.read_unread,
    View.ld_unit_zero (S := S1024x1) hz2, View.ld_unit_zero (S := S1x1024) hz2, View.ld_unit_zero (S := S1x1x1) hz]

end Cert.KernelIdeal.Pieces

end
-- ==== Proof.Accum.lean ====
/-
  The running value the kernel carries from grid point to grid point, in closed form.

  Points run over the tiles row by row: point n is tile (n / 8, n % 8). At the first tile of a row the running value restarts
  from zero; at every tile the tile's total is added. So after point n the running value is the sum of the totals of the
  tiles (n / 8, 0), …, (n / 8, n % 8) — by induction on n. At the last tile of a row (n % 8 = 7) the same value is what the output
  block receives: the sum of the totals of the whole row of tiles.
-/
import proofs.«107003_j24438363914244_2_alg».proof.Proof.Gen.KernelIdeal.Frame
import proofs.«107003_j24438363914244_2_alg».proof.Proof.Spec
import proofs.«107003_j24438363914244_2_alg».proof.Proof.Payload
import proofs.«107003_j24438363914244_2_alg».proof.Proof.Pieces
import proofs.«107003_j24438363914244_2_alg».proof.Proof.Blocks
import Idealize.ShloMosaic.Lib.Pipeline.Value

set_option maxRecDepth 16384

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx
open Cert.KernelIdeal.Blocks (tileSum)

variable (m : (ℓ : Loc nD τ sig) → Buf (Elt Ideal) ℓ)

/-- The two argument vectors. -/
abbrev P (c : Dev nD) : Cert.Kendall.Vec8192 := m ((c : Thread nD τ).loc main_arg0)
abbrev T (c : Dev nD) : Cert.Kendall.Vec8192 := m ((c : Thread nD τ).loc main_arg1)

/-- The running value after point n: the totals of the tiles of row n / 8, columns 0 to n % 8. -/
def acc (c : Dev nD) (n : ℕ) : EReal := ∑ j ∈ Finset.range (n % 8 + 1), tileSum (P m c) (T m c) (n / 8) j

/-- At the first tile of a row the running value is that tile's total. -/
theorem acc_start (c : Dev nD) (n : ℕ) (h : n % 8 = 0) : acc m c n = tileSum (P m c) (T m c) (n / 8) (n % 8) := by
  unfold acc
  rw [h, Finset.sum_range_one]

/-- At a later tile of a row it is the previous running value plus the tile's total. -/
theorem acc_step (c : Dev nD) (n : ℕ) (h : ¬(n + 1) % 8 = 0) :
    acc m c (n + 1) = acc m c n + tileSum (P m c) (T m c) ((n + 1) / 8) ((n + 1) % 8) := by
  unfold acc
  have e1 : (n + 1) / 8 = n / 8 := by omega
  have e2 : (n + 1) % 8 = n % 8 + 1 := by omega
  rw [e1, e2, Finset.sum_range_succ]

/-- The zero the running value restarts from. -/
theorem zero_apply (y : S1x1x1.Idx) : k0_pay2 (F := Ideal) y = 0 := by
  unfold k0_pay2
  rw [shapeCast_self]
  exact Ideal.ofBits_zero_f32

/-- One step of the body at point t, from a running value that is the number a: the number a plus the tile's total. -/
theorem step_eq (c : Dev nD) (t : Fin cfg0.N) (prev : Vec Ideal S1x1x1 .f32) (a : EReal) (hprev : prev = fun _ => a) :
    k0_pay1 (F := Ideal) (k0_pay3 (iblk m c 0 t) (iblk m c 1 t) (iblk m c 2 t) (iblk m c 3 t) prev)
      = fun _ => a + tileSum (P m c) (T m c) (t.val / 8) (t.val % 8) := by
  subst hprev
  unfold k0_pay1
  rw [shapeCast_self]
  funext y
  rw [Cert.KernelIdeal.Tile.pay3_apply, Cert.KernelIdeal.Blocks.tile_at]

/-- The step from the restart. -/
theorem step_zero_eq (c : Dev nD) (t : Fin cfg0.N) :
    k0_pay1 (F := Ideal) (k0_pay3 (iblk m c 0 t) (iblk m c 1 t) (iblk m c 2 t) (iblk m c 3 t) (k0_pay2 (F := Ideal)))
      = fun _ => tileSum (P m c) (T m c) (t.val / 8) (t.val % 8) :=
  (step_eq m c t _ 0 (funext zero_apply)).trans (funext fun _ => zero_add _)

/-- After every point the carried running value is the closed form. -/
theorem scratch_eq (c : Dev nD) : ∀ (n : ℕ) (h : n < cfg0.N), (outsAt0 m c n h).2 = fun _ => acc m c n
  | 0, h => by
    rw [outsAt0_A m c ⟨0, h⟩ rfl (by show ¬(0 % 8 = 7); decide)]
    dsimp only
    rw [Cert.KernelIdeal.Pieces.sout_A, step_zero_eq, acc_start m c 0 rfl]
  | n + 1, h => by
    have hN : cfg0.N = 64 := N_0
    by_cases h0 : (n + 1) % 8 = 0
    · have h1 : ¬(n + 1) % 8 = 7 := by omega
      rw [outsAt0_A m c ⟨n + 1, h⟩ h0 h1]
      dsimp only
      rw [Cert.KernelIdeal.Pieces.sout_A, step_zero_eq, acc_start m c (n + 1) h0]
    · by_cases h1 : (n + 1) % 8 = 7
      · rw [outsAt0_C m c ⟨n + 1, h⟩ h0 h1]
        dsimp only
        rw [Cert.KernelIdeal.Pieces.sout_C]
        refine (step_eq m c ⟨n + 1, h⟩ _ (acc m c n) (scratch_eq c n (Nat.lt_of_succ_lt h))).trans ?_
        rw [acc_step m c n h0]
      · rw [outsAt0_B m c ⟨n + 1, h⟩ h0 h1]
        dsimp only
        rw [Cert.KernelIdeal.Pieces.sout_B]
        refine (step_eq m c ⟨n + 1, h⟩ _ (acc m c n) (scratch_eq c n (Nat.lt_of_succ_lt h))).trans ?_
        rw [acc_step m c n h0]

/-- At the last tile of a row the output block receives the running value: the total of the whole row of tiles. -/
theorem out_eq (c : Dev nD) (t : Fin cfg0.N) (h1 : t.val % 8 = 7) :
    (outsAt0 m c t.val t.isLt).1 = fun _ => acc m c t.val := by
  have hN : cfg0.N = 64 := N_0
  have h0 : ¬t.val % 8 = 0 := by omega
  obtain ⟨n, hn⟩ := t
  cases n with
  | zero => exact absurd h1 (by show ¬(0 % 8 = 7); decide)
  | succ n =>
    rw [outsAt0_C m c ⟨n + 1, hn⟩ h0 h1]
    dsimp only
    rw [Cert.KernelIdeal.Pieces.out_C]
    refine (step_eq m c ⟨n + 1, hn⟩ _ (acc m c n) (scratch_eq m c n (Nat.lt_of_succ_lt hn))).trans ?_
    rw [acc_step m c n h0]

end Cert.KernelIdeal.Accum

end
-- ==== Proof.Final.lean ====
/-
  The array the kernel writes, and the number the program returns.

  The output array has eight entries; entry i is written once, at the last tile of row i of tiles, with the total of that row.
  After the kernel the program adds the eight entries to zero, divides by a constant and subtracts the quotient from one.
-/
import proofs.«107003_j24438363914244_2_alg».proof.Proof.Gen.KernelIdeal.Frame
import proofs.«107003_j24438363914244_2_alg».proof.Proof.Spec
import proofs.«107003_j24438363914244_2_alg».proof.Proof.Blocks
import proofs.«107003_j24438363914244_2_alg».proof.Proof.Accum
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Final

open Cert.KernelIdeal Cert.KernelIdeal.Gen Idealize.ShloMosaic Idealize.ShloMosaic.TcCoe Idealize.ShloMosaic.Tactic Idealize.SL.Sem
open Idealize.ShloMosaic.ValueIdx Idealize.ShloMosaic.StableHlo
open Idealize.ShloMosaic.Pipeline (Dat)
open Cert.KernelIdeal.Blocks (tileSum)
open Cert.KernelIdeal.Accum (P T acc)

variable (m : (ℓ : Loc nD τ sig) → Buf (Elt Ideal) ℓ) (ρ : Dev nD → PrngReg)

/-- The output array: entry (i, 0, 0) is the total of row i of tiles. -/
def G (c : Dev nD) : S8x1x1.Idx → EReal := fun idx => ∑ j ∈ Finset.range 8, tileSum (P m c) (T m c) (idx 0).val j

/-- The output window's block at point t is entry t / 8. -/
theorem idx4_facts : ∀ t : Fin cfg0.N, win0_4.index t 0 = t.val / 8 ∧ win0_4.index t 1 = 0 ∧ win0_4.index t 2 = 0 :=
  (by decide +kernel : ∀ t : Fin grid0.N, win0_4.index t 0 = t.val / 8 ∧ win0_4.index t 1 = 0 ∧ win0_4.index t 2 = 0)

/-- What a point that writes the output block back writes: its entry of the output array. -/
theorem flushed_eq (c : Dev nD) (t : Fin cfg0.N) (hf : (cfg0.win 4).flush t = true) :
    (dats m 0 c).flushed 4 t = ((cfg0.win 4).blk t).view.read (Elt Ideal) (G m c) := by
  have h7 : t.val % 8 = 7 := (flush0_4 t).mp hf
  show (cfg0.win 4).cut (grid0.coords t) ((dats m 0 c).after 4 t) = _
  rw [after0_4, Cert.KernelIdeal.Accum.out_eq m c t h7]
  funext y
  rw [View.read_apply]
  show acc m c t.val = G m c (((cfg0.win 4).blk t).view.emb y)
  have e : ((((cfg0.win 4).blk t).view.emb y) 0).val = t.val / 8 := by
    show win0_4.index t 0 * 1 + 1 * (y 0).val = t.val / 8
    have hy : (y 0).val < 1 := (y 0).isLt
    rw [(idx4_facts t).1]; omega
  unfold Cert.KernelIdeal.Accum.acc G
  rw [e, h7]

/-- An index of the output array is in point t's block iff each coordinate is in the block's range. -/
theorem mem_blk (t : Fin cfg0.N) (i : S8x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v4).slice (win0_4.rect t)).set ↔ _
  rw [View.set_slice_whole, Rect.mem_set_unit]
  exact Iff.rfl

/-- Entry i of the output array is written back at the last tile of row i. -/
theorem cover (i : S8x1x1.Idx) : ∃ t : Fin cfg0.N, (cfg0.win 4).flush t = true ∧ i ∈ ((cfg0.win 4).blk t).view.set := by
  have hN : cfg0.N = 64 := N_0
  have h0 : (i 0).val < 8 := (i 0).isLt
  have h1 : (i 1).val < 1 := (i 1).isLt
  have h2 : (i 2).val < 1 := (i 2).isLt
  have hlt : 8 * (i 0).val + 7 < cfg0.N := by omega
  obtain ⟨e0, e1, e2⟩ := idx4_facts ⟨8 * (i 0).val + 7, hlt⟩
  have e0' : win0_4.index ⟨8 * (i 0).val + 7, hlt⟩ 0 = (i 0).val := by rw [e0]; show (8 * (i 0).val + 7) / 8 = _; omega
  refine ⟨⟨8 * (i 0).val + 7, hlt⟩, (flush0_4 _).mpr (by show (8 * (i 0).val + 7) % 8 = 7; omega), ?_⟩
  rw [mem_blk]
  intro a
  match a with
  | ⟨0, _⟩ =>
    show win0_4.index ⟨8 * (i 0).val + 7, hlt⟩ 0 * 1 ≤ (i 0).val ∧ (i 0).val < win0_4.index ⟨8 * (i 0).val + 7, hlt⟩ 0 * 1 + 1
    rw [e0']; omega
  | ⟨1, _⟩ =>
    show win0_4.index ⟨8 * (i 0).val + 7, hlt⟩ 1 * 1 ≤ (i 1).val ∧ (i 1).val < win0_4.index ⟨8 * (i 0).val + 7, hlt⟩ 1 * 1 + 1
    rw [e1]; omega
  | ⟨2, _⟩ =>
    show win0_4.index ⟨8 * (i 0).val + 7, hlt⟩ 2 * 1 ≤ (i 2).val ∧ (i 2).val < win0_4.index ⟨8 * (i 0).val + 7, hlt⟩ 2 * 1 + 1
    rw [e2]; omega

/-- So the output array ends holding the row totals. -/
theorem final (c : Dev nD) : (dats m 0 c).arrAt 4 cfg0.N = G m c :=
  (dats m 0 c).arrAt_eq_of_cover 4 (G m c) (flushed_eq m c) cover

/-- The program's result after the kernel: one minus the quotient of (zero plus the eight entries) by the constant. -/
theorem tail_eq (c : Dev nD) :
    Pipeline.afterTail₀ cfgs (dats m) 0 (V0 m) [hostOps1] c main_v7
      = subf (F := Ideal) (φ := .f32) (constant (F := Ideal) S_ .f32 0x3F800000#32)
          (Host.divf (F := Ideal) (φ := .f32)
            (Host.reduceAdd (F := Ideal) (G m c) (constant (F := Ideal) S_ .f32 0x00000000#32) reducesTo_S8x1x1_S_d0_1_2 h_S_)
            (constant (F := Ideal) S_ .f32 0x4C7FF800#32)) := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v4)
      = G m c := (Pipeline.withArrays_arr spec0 launch0.win.arr_inj c _ _ 4).trans (final m c)
  rw [e]

end Cert.KernelIdeal.Final

end
-- ==== Proof.KernelRun.lean ====
/-
  The kernel program's run, read: it ends with its result at
      one minus the quotient, by the constant, of (zero plus the tile-by-tile sum of the one-sign pair terms),
  and its two argument vectors unchanged.
-/
import proofs.«107003_j24438363914244_2_alg».proof.Proof.Gen.KernelIdeal.Frame
import proofs.«107003_j24438363914244_2_alg».proof.Proof.Spec
import proofs.«107003_j24438363914244_2_alg».proof.Proof.Blocks
import proofs.«107003_j24438363914244_2_alg».proof.Proof.Accum
import proofs.«107003_j24438363914244_2_alg».proof.Proof.Final
import Idealize.ShloMosaic.Lib.Pipeline.Value
import Idealize.ShloMosaic.PureOps.Ideal.Laws

set_option maxRecDepth 16384

noncomputable section

open scoped BigOperators

namespace Cert.KernelIdeal.KernelRun

open Cert.KernelIdeal Cert.KernelIdeal.Gen Idealize.ShloMosaic Idealize.ShloMosaic.TcCoe Idealize.SL.Sem
open Idealize.ShloMosaic.ValueIdx
open Cert.KernelIdeal.Blocks (tileSum fin8)
open Cert.KernelIdeal.Accum (P T)
open Cert.KernelIdeal.Final (G)
open Cert.Kendall (tiledSum row pairProd)

variable (m : (ℓ : Loc nD τ sig) → Buf (Elt Ideal) ℓ) (ρ : Dev nD → PrngReg)

/-- The eight entries of the output array, numbered. -/
def e8 : Fin 8 ≃ S8x1x1.Idx where
  toFun i := ix3 i (0 : Fin 1) (0 : Fin 1)
  invFun idx := idx 0
  left_inv _ := rfl
  right_inv idx := by
    funext a
    apply Fin.ext
    match a with
    | ⟨0, _⟩ => rfl
    | ⟨1, _⟩ => show 0 = (idx 1).val; have h : (idx 1).val < 1 := (idx 1).isLt; omega
    | ⟨2, _⟩ => show 0 = (idx 2).val; have h : (idx 2).val < 1 := (idx 2).isLt; omega

/-- A tile number below eight is itself as a tile number. -/
theorem fin8_val (i : Fin 8) : fin8 i.val = i := Fin.ext (Nat.mod_eq_of_lt i.isLt)

/-- The eight entries of the output array add up to the tile-by-tile sum. -/
theorem sum_G (c : Dev nD) : ∑ idx : S8x1x1.Idx, G m c idx = tiledSum (P m c) (T m c) := by
  rw [← Equiv.sum_comp e8 (G m c)]
  unfold tiledSum
  refine Finset.sum_congr rfl fun i _ => ?_
  show ∑ j ∈ Finset.range 8, tileSum (P m c) (T m c) i.val j = _
  rw [← Fin.sum_univ_eq_sum_range (fun j => tileSum (P m c) (T m c) i.val j) 8]
  refine Finset.sum_congr rfl fun j _ => ?_
  unfold tileSum
  rw [fin8_val, fin8_val]

/-- The host's sum of the output array from zero. -/
theorem reduce_apply (Gv : S8x1x1.Idx → EReal) (i : S_.Idx) :
    Host.reduceAdd (F := Ideal) Gv (constant (F := Ideal) S_ .f32 0x00000000#32) reducesTo_S8x1x1_S_d0_1_2 h_S_ i
      = Ideal.ofBits .f32 0x00000000#32 + ∑ j : S8x1x1.Idx, Gv j := by
  simp only [Host.reduceAdd, Ideal.hostReduceAdd_def]
  exact Ideal.hostReduceAdd_total reducesTo_S8x1x1_S_d0_1_2 (fun b => b.elim0) Gv _ i

/-- The number the kernel program returns. -/
def result (c : Dev nD) : S_.Idx → EReal := fun _ =>
  Ideal.ofBits .f32 0x3F800000#32
    - Ideal.div (Ideal.ofBits .f32 0x00000000#32 + tiledSum (P m c) (T m c)) (Ideal.ofBits .f32 0x4C7FF800#32)

/-- The lines after the kernel compute it from the output array. -/
theorem tail_result (c : Dev nD) :
    Pipeline.afterTail₀ cfgs (dats m) 0 (V0 m) [hostOps1] c main_v7 = result m c := by
  rw [Cert.KernelIdeal.Final.tail_eq]
  funext i
  show Ideal.ofBits .f32 0x3F800000#32
      - Ideal.div (Host.reduceAdd (F := Ideal) (G m c) (constant (F := Ideal) S_ .f32 0x00000000#32) reducesTo_S8x1x1_S_d0_1_2 h_S_ i)
          (Ideal.ofBits .f32 0x4C7FF800#32) = _
  rw [reduce_apply, sum_G]
  rfl

/-- The run: the result buffer ends at that number, the arguments as they were. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v7 (Pipeline.mem_restRefs_of main_v7 (by decide) (by decide))).trans (tail_result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KernelRun

end
-- ==== Proof.lean ====
/-
  Kendall's tau loss, computed two ways, is one number.

  For two vectors p and t of 8192 finite numbers both programs return
      1 - S / C,      S = the sum over all pairs (a, b) of sign (p a - p b) · sign (t a - t b),   C a constant.
  The reference forms the two 8192 x 8192 sign matrices, multiplies them entry by entry, adds everything up, halves the sum
  and doubles it again before dividing. The kernel walks over the 8 x 8 tiles of 1024 x 1024 pairs; in each tile it takes ONE
  sign, of the product (p a - p b)(t a - t b), adds the tile up (through a product with a matrix of ones and a column sum),
  accumulates the tiles of a row of tiles in a running value that restarts at the row's first tile, and writes the row's total
  out at its last tile; the eight row totals are then added and divided.

  Over the extended reals, for REAL entries (the precondition: every input is finite): the sign of a product is the product
  of the signs, so the tiles hold the same terms; a finite sum of reals may be taken in any order, so the tile-by-tile sum is
  the double sum; and 2 · (S · ½) = S for a real S. Both programs divide by the same constant and subtract from the same one.
  The kernel's sign, which the word-level program takes from the sign bit, is replaced in the idealized program by a
  comparison with zero: that replacement is the one rewrite the idealization made, and its statement is the library's.
-/
import proofs.«107003_j24438363914244_2_alg».proof.Defs
import proofs.«107003_j24438363914244_2_alg».proof.Proof.Gen.Kernel
import proofs.«107003_j24438363914244_2_alg».proof.Proof.Gen.Kernel.Skeleton
import proofs.«107003_j24438363914244_2_alg».proof.Proof.Gen.Kernel.Launch
import proofs.«107003_j24438363914244_2_alg».proof.Proof.Gen.Kernel.Points
import proofs.«107003_j24438363914244_2_alg».proof.Proof.Gen.Kernel.Frame
import proofs.«107003_j24438363914244_2_alg».proof.Proof.Gen.KernelIdeal
import proofs.«107003_j24438363914244_2_alg».proof.Proof.Gen.KernelIdeal.Skeleton
import proofs.«107003_j24438363914244_2_alg».proof.Proof.Gen.KernelIdeal.Launch
import proofs.«107003_j24438363914244_2_alg».proof.Proof.Gen.KernelIdeal.Points
import proofs.«107003_j24438363914244_2_alg».proof.Proof.Gen.KernelIdeal.Frame
import proofs.«107003_j24438363914244_2_alg».proof.Proof.Gen.ReferenceIdeal
import proofs.«107003_j24438363914244_2_alg».proof.Proof.Gen.ReferenceIdeal.Run
import proofs.«107003_j24438363914244_2_alg».proof.Proof.Gen.ReferenceIdeal.Read
import proofs.«107003_j24438363914244_2_alg».proof.Proof.Gen.Pre_finite_inputs
import proofs.«107003_j24438363914244_2_alg».proof.Proof.Bridge
import proofs.«107003_j24438363914244_2_alg».proof.Proof.Finite
import proofs.«107003_j24438363914244_2_alg».proof.Proof.RefSide
import proofs.«107003_j24438363914244_2_alg».proof.Proof.KernelRun
import Idealize.ShloMosaic.Adequacy
import Idealize.ShloMosaic.Init

noncomputable section

namespace Cert.Proof

open Idealize.ShloMosaic Idealize.SL.Sem

/-- The word-level kernel program runs and leaves its arguments as they were. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: "one with the sign bit of x" became "minus one if x is below zero, else one". -/
theorem preserves : Cert.preserves_Kernel_KernelIdeal := IdealRules.sign_bit.statement Cert.KernelIdeal.S1024x1024 .f32

/-- From arguments that agree and are finite the two idealized programs end with the same number. -/
theorem algebraic : Cert.algebraic_KernelIdeal_ReferenceIdeal := by
  intro m ρ m' ρ' hpre hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  obtain ⟨hp, ht⟩ := Cert.Finite.real_of_pre _ _ (hpre c)
  funext i
  rw [Cert.ReferenceIdeal.RefValue.result_apply, Cert.Kendall.bridge _ _ hp ht]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
